-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x64 : Shape := ⟨4, ![8, 128, 128, 64]⟩
abbrev S64x16 : Shape := ⟨2, ![64, 16]⟩
abbrev S_ : Shape := ⟨0, ![]⟩

class Facts : Prop where
  bcast_S_S8x128x128x64 : S_.BroadcastsInDim S8x128x128x64 (![] : Fin 0 → Fin S8x128x128x64.rank)
  reducesTo_S8x128x128x64_S_d0_1_2_3 : S8x128x128x64.ReducesTo [0, 1, 2, 3] S_
  h_S_ : 0 < S_.numel
  bcast_S_S64x16 : S_.BroadcastsInDim S64x16 (![] : Fin 0 → Fin S64x16.rank)
  reducesTo_S64x16_S_d0_1 : S64x16.ReducesTo [0, 1] S_

variable [Facts]

def fn {F : FTy → Type} [FloatOps F] (main_arg0 : FVec F S8x128x128x64 .f32) (main_arg1 : FVec F S64x16 .f32) : IVec S_ 1 :=
  let main_v0 : FVec F S8x128x128x64 .f32 := Host.absf main_arg0
  let main_cst : FVec F S_ .f32 := constant S_ .f32 0x7F800000#32
  let main_v1 : FVec F S8x128x128x64 .f32 := broadcastInDim S8x128x128x64 ![] bcast_S_S8x128x128x64 main_cst
  let main_v2 : IVec S8x128x128x64 1 := cmpf .olt main_v0 main_v1
  let main_c : IVec S_ 1 := constantI S_ 1 1#1
  let main_v3 : IVec S_ 1 := (fun x v => Host.reduce IntOp.andi x v reducesTo_S8x128x128x64_S_d0_1_2_3 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  main_v8
-- ==== Kernel.lean ====
abbrev S8x128x128x64 : Shape := ⟨4, ![8, 128, 128, 64]⟩
abbrev S64x16 : Shape := ⟨2, ![64, 16]⟩
abbrev S8x128x128x1024 : Shape := ⟨4, ![8, 128, 128, 1024]⟩
abbrev S1x16x128x64 : Shape := ⟨4, ![1, 16, 128, 64]⟩
abbrev S1x16x128x1024 : Shape := ⟨4, ![1, 16, 128, 1024]⟩
abbrev S64 : Shape := ⟨1, ![64]⟩
abbrev S64x1 : Shape := ⟨2, ![64, 1]⟩
abbrev S1x16x128x64x1 : Shape := ⟨5, ![1, 16, 128, 64, 1]⟩
abbrev S1x1x1x64x16 : Shape := ⟨5, ![1, 1, 1, 64, 16]⟩
abbrev S1x16x128x64x16 : Shape := ⟨5, ![1, 16, 128, 64, 16]⟩
abbrev S8x128x128x64x16 : Shape := ⟨5, ![8, 128, 128, 64, 16]⟩

abbrev nBuf : Space → Nat
  | .hbm => 4
  | .vmem => 5
  | .smem => 0
  | _ => 0

abbrev bufTy : (tb : Table) → Fin (tcTables nBuf tb) → BufTy
  | .hbm, ⟨0, _⟩ => ⟨S8x128x128x64, .f32⟩
  | .hbm, ⟨1, _⟩ => ⟨S64x16, .f32⟩
  | .hbm, ⟨2, _⟩ => ⟨S8x128x128x1024, .f32⟩
  | .hbm, ⟨3, _⟩ => ⟨S8x128x128x64x16, .f32⟩
  | .local _ .vmem, ⟨0, _⟩ => ⟨S1x16x128x64, .f32⟩
  | .local _ .vmem, ⟨1, _⟩ => ⟨S1x16x128x64, .f32⟩
  | .local _ .vmem, ⟨2, _⟩ => ⟨S64x16, .f32⟩
  | .local _ .vmem, ⟨3, _⟩ => ⟨S1x16x128x1024, .f32⟩
  | .local _ .vmem, ⟨4, _⟩ => ⟨S1x16x128x1024, .f32⟩
  | _, _ => ⟨S8x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S64x16_S64x16_0_0 : ∀ a, (![0, 0] : Fin 2 → Nat) a + S64x16.size a ≤ S64x16.size a
  h_S64x16 : 0 < S64x16.numel
  reduces_S64x16_S64 : S64x16.Reduces [1] S64
  shapeCasts_S64_S64x1 : S64.ShapeCasts S64x1
  broadcasts_S64x1_S64x16 : S64x1.Broadcasts S64x16
  inb_S1x16x128x64_S1x16x128x64_0_0_0_0 : ∀ a, (![0, 0, 0, 0] : Fin 4 → Nat) a + S1x16x128x64.size a ≤ S1x16x128x64.size a
  h_S1x16x128x64 : 0 < S1x16x128x64.numel
  shapeCasts_S1x16x128x64_S1x16x128x64x1 : S1x16x128x64.ShapeCasts S1x16x128x64x1
  shapeCasts_S64x16_S1x1x1x64x16 : S64x16.ShapeCasts S1x1x1x64x16
  broadcasts_S1x16x128x64x1_S1x16x128x64x16 : S1x16x128x64x1.Broadcasts S1x16x128x64x16
  broadcasts_S1x1x1x64x16_S1x16x128x64x16 : S1x1x1x64x16.Broadcasts S1x16x128x64x16
  shapeCasts_S1x16x128x64x16_S1x16x128x1024 : S1x16x128x64x16.ShapeCasts S1x16x128x1024
  inb_S1x16x128x1024_S1x16x128x1024_0_0_0_0 : ∀ a, (![0, 0, 0, 0] : Fin 4 → Nat) a + S1x16x128x1024.size a ≤ S1x16x128x1024.size a
  h_S1x16x128x1024 : 0 < S1x16x128x1024.numel
  shapeCasts_S8x128x128x1024_S8x128x128x64x16 : S8x128x128x1024.ShapeCasts S8x128x128x64x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x64.size a ≤ S8x128x128x64.size a
  hwx0_0 : ∀ i : grid0.Coords, EltTy.bits .f32 = 32 ∨ (Rect.block (s := S8x128x128x64) S1x16x128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128x1024.size a ≤ S8x128x128x1024.size a
  hwx0_2 : ∀ i : grid0.Coords, EltTy.bits .f32 = 32 ∨ (Rect.block (s := S8x128x128x1024) S1x16x128x1024.size (cc0_transform_2 i) (hinb0_2 i)).WholeWords (EltTy.packing .f32)

variable [Facts₀]

abbrev win0_0 : Pipeline.Window sig grid0 :=
  Pipeline.Window.ofSpec (Memref.whole main_arg0) S1x16x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16x128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x128x128x64 : Shape := ⟨4, ![8, 128, 128, 64]⟩
abbrev S64x16 : Shape := ⟨2, ![64, 16]⟩
abbrev S_ : Shape := ⟨0, ![]⟩
abbrev S64 : Shape := ⟨1, ![64]⟩
abbrev S64x1 : Shape := ⟨2, ![64, 1]⟩
abbrev S8x128x128x64x1 : Shape := ⟨5, ![8, 128, 128, 64, 1]⟩
abbrev S1x1x1x64x16 : Shape := ⟨5, ![1, 1, 1, 64, 16]⟩
abbrev S8x128x128x64x16 : Shape := ⟨5, ![8, 128, 128, 64, 16]⟩

abbrev nBuf : Space → Nat
  | .hbm => 13
  | .vmem => 0
  | .smem => 0
  | _ => 0

abbrev bufTy : (tb : Table) → Fin (tcTables nBuf tb) → BufTy
  | .hbm, ⟨0, _⟩ => ⟨S8x128x128x64, .f32⟩
  | .hbm, ⟨1, _⟩ => ⟨S64x16, .f32⟩
  | .hbm, ⟨2, _⟩ => ⟨S64x16, .f32⟩
  | .hbm, ⟨3, _⟩ => ⟨S_, .f32⟩
  | .hbm, ⟨4, _⟩ => ⟨S64, .f32⟩
  | .hbm, ⟨5, _⟩ => ⟨S64x1, .f32⟩
  | .hbm, ⟨6, _⟩ => ⟨S64x16, .f32⟩
  | .hbm, ⟨7, _⟩ => ⟨S64x16, .f32⟩
  | .hbm, ⟨8, _⟩ => ⟨S8x128x128x64x1, .f32⟩
  | .hbm, ⟨9, _⟩ => ⟨S1x1x1x64x16, .f32⟩
  | .hbm, ⟨10, _⟩ => ⟨S8x128x128x64x16, .f32⟩
  | .hbm, ⟨11, _⟩ => ⟨S8x128x128x64x16, .f32⟩
  | .hbm, ⟨12, _⟩ => ⟨S8x128x128x64x16, .f32⟩
  | _, _ => ⟨S8x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  reducesTo_S64x16_S64_d1 : S64x16.ReducesTo [1] S64
  h_S_ : 0 < S_.numel
  bcast_S64_S64x1_0 : S64.BroadcastsInDim S64x1 (![0] : Fin 1 → Fin S64x1.rank)
  bcast_S64x1_S64x16_0_1 : S64x1.BroadcastsInDim S64x16 (![0, 1] : Fin 2 → Fin S64x16.rank)
  bcast_S8x128x128x64_S8x128x128x64x1_0_1_2_3 : S8x128x128x64.BroadcastsInDim S8x128x128x64x1 (![0, 1, 2, 3] : Fin 4 → Fin S8x128x128x64x1.rank)
  bcast_S64x16_S1x1x1x64x16_3_4 : S64x16.BroadcastsInDim S1x1x1x64x16 (![3, 4] : Fin 2 → Fin S1x1x1x64x16.rank)
  bcast_S8x128x128x64x1_S8x128x128x64x16_0_1_2_3_4 : S8x128x128x64x1.BroadcastsInDim S8x128x128x64x16 (![0, 1, 2, 3, 4] : Fin 5 → Fin S8x128x128x64x16.rank)
  bcast_S1x1x1x64x16_S8x128x128x64x16_0_1_2_3_4 : S1x1x1x64x16.BroadcastsInDim S8x128x128x64x16 (![0, 1, 2, 3, 4] : Fin 5 → Fin S8x128x128x64x16.rank)

variable [Facts₀]

class Facts : Prop extends Facts₀ where

variable [Facts]
-- ==== Proof.MassWeights.lean ====
/-
  The one function both programs compute, on the extended reals.

  For a feature `d` (of 64) and a class `c` (of 16) the WEIGHT is the squared entry of row `d` of `β` over that row's
  sum of squares,
      u(d, c) = β(d,c)·β(d,c) / Σ_k β(d,k)·β(d,k),
  and the result spreads every input entry over the classes by those weights:
      out(b, h, w, d, c) = x(b, h, w, d) · u(d, c).
  The kernel writes the result with its two last axes merged into one of length 64·16 = 1024,
      flat(b, h, w, l) = out(b, h, w, l / 16, l % 16),
  and the host splits the merged axis again (a row-major reshape): `split_flat` says that this gives `out` back.
  Nothing here needs an entry to be finite: the quotient is the extended reals' own, taken once, the same on both sides.
-/
import Idealize.ShloMosaic.PureOps.Ideal
import Idealize.ShloMosaic.Lib.ValueIdx
import Idealize.ShloMosaic.Lib.Pipeline.Value

noncomputable section

namespace Cert.MassPrototype

open Idealize.ShloMosaic Idealize.ShloMosaic.ValueIdx

/-- The weight of class `c` within feature `d`: the squared entry over its row's sum of squares. -/
def weight (β : FVec Ideal ⟨2, ![64, 16]⟩ .f32) (d : Fin 64) (c : Fin 16) : EReal :=
  Ideal.div (β (ix2 d c) * β (ix2 d c)) (∑ k : Fin 16, β (ix2 d k) * β (ix2 d k))

/-- The result: every input entry times the weight of each class within the entry's feature. -/
def spread (x : FVec Ideal ⟨4, ![8, 128, 128, 64]⟩ .f32) (β : FVec Ideal ⟨2, ![64, 16]⟩ .f32) :
    FVec Ideal ⟨5, ![8, 128, 128, 64, 16]⟩ .f32 :=
  fun i => x (ix4 (i 0 : Fin 8) (i 1 : Fin 128) (i 2 : Fin 128) (i 3 : Fin 64)) * weight β (i 3 : Fin 64) (i 4 : Fin 16)

/-- The feature a position `l` of the merged axis belongs to, -/
abbrev featureOf (l : Fin 1024) : Fin 64 := ⟨l.val / 16, by have := l.isLt; omega⟩
/-- and its class. -/
abbrev classOf (l : Fin 1024) : Fin 16 := ⟨l.val % 16, by omega⟩

/-- The result with its two last axes merged, feature-major: position `l` holds feature `l / 16`, class `l % 16`. -/
def spreadFlat (x : FVec Ideal ⟨4, ![8, 128, 128, 64]⟩ .f32) (β : FVec Ideal ⟨2, ![64, 16]⟩ .f32) :
    FVec Ideal ⟨4, ![8, 128, 128, 1024]⟩ .f32 :=
  fun i => x (ix4 (i 0 : Fin 8) (i 1 : Fin 128) (i 2 : Fin 128) (featureOf (i 3))) * weight β (featureOf (i 3)) (classOf (i 3))

/-- Splitting the merged axis row-major into (feature, class) gives the result back: entry (…, d, c) of the split array is
    entry (…, 16·d + c) of the merged one, whose feature is `d` and whose class is `c`. -/
theorem split_flat (x : FVec Ideal ⟨4, ![8, 128, 128, 64]⟩ .f32) (β : FVec Ideal ⟨2, ![64, 16]⟩ .f32)
    (h : (⟨4, ![8, 128, 128, 1024]⟩ : Shape).ShapeCasts ⟨5, ![8, 128, 128, 64, 16]⟩) :
    shapeCast ⟨5, ![8, 128, 128, 64, 16]⟩ (spreadFlat x β) h = spread x β := by
  funext i
  obtain ⟨b, r, w, d, c, rfl⟩ : ∃ (b : Fin 8) (r : Fin 128) (w : Fin 128) (d : Fin 64) (c : Fin 16), i = ix5 b r w d c :=
    ⟨i 0, i 1, i 2, i 3, i 4, eq_ix5 i⟩
  have hl : d.val * 16 + c.val < 1024 := by have := d.isLt; have := c.isLt; omega
  refine (shapeCast_apply (spreadFlat x β) h (ix5 b r w d c) (ix4 b r w (⟨d.val * 16 + c.val, hl⟩ : Fin 1024)) ?_).trans ?_
  · rw [Shape.rowMajor_val_four, Shape.rowMajor_val_five]
    show ((b.val * 128 + r.val) * 128 + w.val) * 1024 + (d.val * 16 + c.val)
      = (((b.val * 128 + r.val) * 128 + w.val) * 64 + d.val) * 16 + c.val
    omega
  · have hd : featureOf (⟨d.val * 16 + c.val, hl⟩ : Fin 1024) = d := Fin.ext (by
      show (d.val * 16 + c.val) / 16 = d.val; have := c.isLt; omega)
    have hc : classOf (⟨d.val * 16 + c.val, hl⟩ : Fin 1024) = c := Fin.ext (by
      show (d.val * 16 + c.val) % 16 = c.val; have := c.isLt; omega)
    show x (ix4 b r w (featureOf ⟨d.val * 16 + c.val, hl⟩)) * weight β (featureOf ⟨d.val * 16 + c.val, hl⟩) (classOf ⟨d.val * 16 + c.val, hl⟩)
      = x (ix4 b r w d) * weight β d c
    rw [hd, hc]

end Cert.MassPrototype

end
-- ==== Proof.BlockPayload.lean ====
/-
  What the kernel's body stores, read at an entry.

  At a grid point the body holds the whole weight table's source `β` ([64, 16]) and one block of the input ([1, 16, 128, 64]:
  one batch entry, sixteen rows). It squares `β`, sums each row's squares (a lane sum, kept as a column and repeated along the
  row), divides — that is the weight table —, views the input block with a trailing unit axis and the table with three
  leading unit axes, repeats both to [1, 16, 128, 64, 16], multiplies, and merges the two last axes row-major into one of
  length 1024. So entry (0, r, w, l) of what it stores is the input block's entry (0, r, w, l / 16) times the weight of
  class `l % 16` within feature `l / 16`.
-/
import proofs.«155402_j62466004353281_2_alg».proof.Proof.Gen.KernelIdeal.Skeleton
import proofs.«155402_j62466004353281_2_alg».proof.Proof.MassWeights
import Idealize.ShloMosaic.PureOps.Ideal.Laws
import Idealize.ShloMosaic.Lib.Pipeline.Value

noncomputable section

namespace Cert.MassPrototype

open Cert.KernelIdeal Cert.KernelIdeal.Gen Idealize.ShloMosaic Idealize.ShloMosaic.ValueIdx

/-- The row sums of a [64, 16] table, kept as a column and repeated along the row, read at (d, c): the sum of row `d`. -/
theorem rowSums_apply (q : FVec Ideal S64x16 .f32) (hr : S64x16.Reduces [1] S64) (hφ : FKind.Formats .f32)
    (hacc : (0x00000000#32 : BitVec (FTy.bits .f32)) = FKind.add.neutral .f32 hφ)
    (hc : S64.ShapeCasts S64x1) (hb : S64x1.Broadcasts S64x16) (d : Fin 64) (c : Fin 16) :
    broadcastTo S64x16 (shapeCast S64x1 (multiReduction .add [1] S64 q 0x00000000#32 hr hφ hacc) hc) hb (ix2 d c)
      = ∑ k : Fin 16, q (ix2 d k) := by
  refine (broadcastTo_apply _ hb (ix2 d c) (ix2 d (0 : Fin 1)) ?_).trans ?_
  · intro a
    match a with
    | ⟨0, _⟩ => show d.val = if (64 : Nat) = 1 then 0 else d.val; rw [if_neg (by decide)]
    | ⟨1, _⟩ => show 0 = if (1 : Nat) = 1 then 0 else c.val; rw [if_pos rfl]
  refine (shapeCast_apply _ hc (ix2 d (0 : Fin 1)) (ix1 d) ?_).trans ?_
  · rw [Shape.rowMajor_val_one, Shape.rowMajor_val_two]
    show d.val = d.val * 1 + 0
    omega
  refine (Ideal.multiReduction_add_single q _ hr hφ hacc (ix1 d)).trans ?_
  exact Finset.sum_congr rfl fun k _ => congrArg q (funext fun a => Fin.ext (by match a with | ⟨0, _⟩ => rfl | ⟨1, _⟩ => rfl))

/-- The weight table the body builds from `β`, read at (d, c), is the weight of class `c` within feature `d`. -/
theorem table_apply (β : FVec Ideal S64x16 .f32) (hr : S64x16.Reduces [1] S64) (hφ : FKind.Formats .f32)
    (hacc : (0x00000000#32 : BitVec (FTy.bits .f32)) = FKind.add.neutral .f32 hφ)
    (hc : S64.ShapeCasts S64x1) (hb : S64x1.Broadcasts S64x16) (d : Fin 64) (c : Fin 16) :
    divf (mulf β β) (broadcastTo S64x16 (shapeCast S64x1 (multiReduction .add [1] S64 (mulf β β) 0x00000000#32 hr hφ hacc) hc) hb) (ix2 d c)
      = weight β d c := by
  show Ideal.div (β (ix2 d c) * β (ix2 d c)) _ = Ideal.div (β (ix2 d c) * β (ix2 d c)) _
  exact congrArg (Ideal.div (β (ix2 d c) * β (ix2 d c))) (rowSums_apply (mulf β β) hr hφ hacc hc hb d c)

/-- The input block viewed with a trailing unit axis and repeated along the classes, read at (0, r, w, d, c): the block's
    entry (0, r, w, d). -/
theorem inputs_apply (x : FVec Ideal S1x16x128x64 .f32) (hc : S1x16x128x64.ShapeCasts S1x16x128x64x1)
    (hb : S1x16x128x64x1.Broadcasts S1x16x128x64x16) (r : Fin 16) (w : Fin 128) (d : Fin 64) (c : Fin 16) :
    broadcastTo S1x16x128x64x16 (shapeCast S1x16x128x64x1 x hc) hb (ix5 (0 : Fin 1) r w d c) = x (ix4 (0 : Fin 1) r w d) := by
  refine (broadcastTo_apply _ hb (ix5 (0 : Fin 1) r w d c) (ix5 (0 : Fin 1) r w d (0 : Fin 1)) ?_).trans ?_
  · intro a
    match a with
    | ⟨0, _⟩ => show 0 = if (1 : Nat) = 1 then 0 else 0; rw [if_pos rfl]
    | ⟨1, _⟩ => show r.val = if (16 : Nat) = 1 then 0 else r.val; rw [if_neg (by decide)]
    | ⟨2, _⟩ => show w.val = if (128 : Nat) = 1 then 0 else w.val; rw [if_neg (by decide)]
    | ⟨3, _⟩ => show d.val = if (64 : Nat) = 1 then 0 else d.val; rw [if_neg (by decide)]
    | ⟨4, _⟩ => show 0 = if (1 : Nat) = 1 then 0 else c.val; rw [if_pos rfl]
  refine shapeCast_apply x hc (ix5 (0 : Fin 1) r w d (0 : Fin 1)) (ix4 (0 : Fin 1) r w d) ?_
  rw [Shape.rowMajor_val_four, Shape.rowMajor_val_five]
  show ((0 * 16 + r.val) * 128 + w.val) * 64 + d.val = (((0 * 16 + r.val) * 128 + w.val) * 64 + d.val) * 1 + 0
  omega

/-- A [64, 16] table viewed with three leading unit axes and repeated along them, read at (0, r, w, d, c): the table's
    entry (d, c). -/
theorem tables_apply (u : FVec Ideal S64x16 .f32) (hc : S64x16.ShapeCasts S1x1x1x64x16)
    (hb : S1x1x1x64x16.Broadcasts S1x16x128x64x16) (r : Fin 16) (w : Fin 128) (d : Fin 64) (c : Fin 16) :
    broadcastTo S1x16x128x64x16 (shapeCast S1x1x1x64x16 u hc) hb (ix5 (0 : Fin 1) r w d c) = u (ix2 d c) := by
  refine (broadcastTo_apply _ hb (ix5 (0 : Fin 1) r w d c) (ix5 (0 : Fin 1) (0 : Fin 1) (0 : Fin 1) d c) ?_).trans ?_
  · intro a
    match a with
    | ⟨0, _⟩ => show 0 = if (1 : Nat) = 1 then 0 else 0; rw [if_pos rfl]
    | ⟨1, _⟩ => show 0 = if (1 : Nat) = 1 then 0 else r.val; rw [if_pos rfl]
    | ⟨2, _⟩ => show 0 = if (1 : Nat) = 1 then 0 else w.val; rw [if_pos rfl]
    | ⟨3, _⟩ => show d.val = if (64 : Nat) = 1 then 0 else d.val; rw [if_neg (by decide)]
    | ⟨4, _⟩ => show c.val = if (16 : Nat) = 1 then 0 else c.val; rw [if_neg (by decide)]
  refine shapeCast_apply u hc (ix5 (0 : Fin 1) (0 : Fin 1) (0 : Fin 1) d c) (ix2 d c) ?_
  rw [Shape.rowMajor_val_two, Shape.rowMajor_val_five]
  show d.val * 16 + c.val = (((0 * 1 + 0) * 1 + 0) * 64 + d.val) * 16 + c.val
  omega

/-- The body's stored value is this composition of its two loads (the printed operations, in order). -/
theorem payload_eq (v0 : FVec Ideal S64x16 .f32) (v6 : FVec Ideal S1x16x128x64 .f32) :
    k0_pay1 (F := Ideal) v0 v6
      = shapeCast S1x16x128x1024
          (mulf (broadcastTo S1x16x128x64x16 (shapeCast S1x16x128x64x1 v6 shapeCasts_S1x16x128x64_S1x16x128x64x1) broadcasts_S1x16x128x64x1_S1x16x128x64x16)
            (broadcastTo S1x16x128x64x16
              (shapeCast S1x1x1x64x16
                (divf (mulf v0 v0) (broadcastTo S64x16 (shapeCast S64x1 (multiReduction .add [1] S64 (mulf v0 v0) 0x00000000#32 reduces_S64x16_S64 (.inl rfl) rfl) shapeCasts_S64_S64x1) broadcasts_S64x1_S64x16))
                shapeCasts_S64x16_S1x1x1x64x16)
              broadcasts_S1x1x1x64x16_S1x16x128x64x16))
          shapeCasts_S1x16x128x64x16_S1x16x128x1024 := rfl

/-- WHAT THE BODY STORES at entry (0, r, w, l): the input block's entry (0, r, w, l / 16) times the weight of class `l % 16`
    within feature `l / 16`. -/
theorem payload_apply (v0 : FVec Ideal S64x16 .f32) (v6 : FVec Ideal S1x16x128x64 .f32) (r : Fin 16) (w : Fin 128) (l : Fin 1024) :
    k0_pay1 (F := Ideal) v0 v6 (ix4 (0 : Fin 1) r w l)
      = v6 (ix4 (0 : Fin 1) r w (featureOf l)) * weight v0 (featureOf l) (classOf l) := by
  rw [payload_eq]
  refine (shapeCast_apply _ shapeCasts_S1x16x128x64x16_S1x16x128x1024 (ix4 (0 : Fin 1) r w l)
    (ix5 (0 : Fin 1) r w (featureOf l) (classOf l)) ?_).trans ?_
  · rw [Shape.rowMajor_val_five, Shape.rowMajor_val_four]
    show (((0 * 16 + r.val) * 128 + w.val) * 64 + l.val / 16) * 16 + l.val % 16 = ((0 * 16 + r.val) * 128 + w.val) * 1024 + l.val
    omega
  show _ * _ = _ * _
  rw [inputs_apply, tables_apply]
  exact congrArg (v6 (ix4 (0 : Fin 1) r w (featureOf l)) * ·)
    (table_apply v0 reduces_S64x16_S64 (.inl rfl) rfl shapeCasts_S64_S64x1 broadcasts_S64x1_S64x16 (featureOf l) (classOf l))

end Cert.MassPrototype

end
-- ==== Proof.FlatArray.lean ====
/-
  The merged-axes array after the kernel's region is `spreadFlat` of the two arguments.

  The grid has 8 × 8 points; point (b, h) holds batch entry `b`, rows 16·h … 16·h + 15 of the input (all 128 columns, all
  64 features), the whole of `β`, and writes back the same batch entry and rows of the merged-axes array (all 128 columns,
  all 1024 merged positions). So the input block and the output block sit at the same block index on every axis, and what
  the point writes back is the block of `spreadFlat` at its place: an entry of the block at (0, r, w, l) is array entry
  (b, 16·h + r, w, l), and the input entry it reads is (b, 16·h + r, w, l / 16). The 64 blocks tile the array — the point
  covering row `i₁` of batch entry `i₀` is (i₀, i₁ / 16) —, so after the last write-back the array is `spreadFlat` everywhere.
-/
import proofs.«155402_j62466004353281_2_alg».proof.Proof.Gen.KernelIdeal.Frame
import proofs.«155402_j62466004353281_2_alg».proof.Proof.BlockPayload
import Idealize.ShloMosaic.Lib.Pipeline.Value

noncomputable section

namespace Cert.MassPrototype

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets4 : (![0, 0, 0, 0] : Fin 4 → Nat) = fun _ => 0 := funext fun a => by fin_cases a <;> rfl
theorem zero_offsets2 : (![0, 0] : Fin 2 → Nat) = fun _ => 0 := funext fun a => by fin_cases a <;> rfl

/-- The printed index maps, decided over the 64 points: the input's block sits where the output's does on the batch and row
    axes, both are at 0 on the two last axes, `β`'s one block is at (0, 0), and the output's block indices are below 8. -/
theorem index_facts : ∀ t : Fin cfg0.N,
    win0_0.index t (0 : Fin 4) = win0_2.index t (0 : Fin 4)
    ∧ win0_0.index t (1 : Fin 4) = win0_2.index t (1 : Fin 4)
    ∧ win0_0.index t (2 : Fin 4) = 0 ∧ win0_0.index t (3 : Fin 4) = 0
    ∧ win0_2.index t (2 : Fin 4) = 0 ∧ win0_2.index t (3 : Fin 4) = 0
    ∧ win0_1.index t (0 : Fin 2) = 0 ∧ win0_1.index t (1 : Fin 2) = 0
    ∧ win0_2.index t (0 : Fin 4) ≤ 7 ∧ win0_2.index t (1 : Fin 4) ≤ 7 :=
  (by decide +kernel : ∀ t : Fin grid0.N, _)

/-- Every (batch entry, group of sixteen rows) is some point's block. -/
theorem index_onto : ∀ (q0 : Fin 8) (q1 : Fin 8), ∃ t : Fin cfg0.N, win0_2.index t = ![q0.val, q1.val, 0, 0] :=
  (by decide +kernel : ∀ (q0 : Fin 8) (q1 : Fin 8), ∃ t : Fin grid0.N, win0_2.index t = ![q0.val, q1.val, 0, 0])

/-- WHAT POINT `t` WRITES BACK is block `t` of `spreadFlat` of the argument arrays as the region finds them. -/
theorem flushed_eq (c : Dev nD) (t : Fin cfg0.N) :
    (dats m 0 c).flushed 2 t
      = ((cfg0.win 2).blk t).view.read (Elt Ideal) (spreadFlat (V m c main_arg0) (V m c main_arg1)) := by
  show (cfg0.win 2).cut (grid0.coords t) ((dats m 0 c).after 2 t) = _
  rw [after0_2]
  unfold out0_2
  rw [View.canon_unit_zero zero_offsets4]
  simp only [View.ld_unit_zero (S := S64x16) zero_offsets2, View.ld_unit_zero (S := S1x16x128x64) zero_offsets4]
  obtain ⟨e0, e1, e2, e3, e4, e5, e6, e7, e8, e9⟩ := index_facts t
  funext j
  obtain ⟨z, r, w, l, rfl⟩ : ∃ (z : Fin 1) (r : Fin 16) (w : Fin 128) (l : Fin 1024), j = ix4 z r w l :=
    ⟨j 0, j 1, j 2, j 3, eq_ix4 j⟩
  obtain rfl : z = 0 := Fin.ext (by have := z.isLt; omega)
  show k0_pay1 (iblk m c 1 t) (iblk m c 0 t) (ix4 (0 : Fin 1) r w l)
    = spreadFlat (V m c main_arg0) (V m c main_arg1) (((cfg0.win 2).blk t).view.emb (ix4 (0 : Fin 1) r w l))
  refine (payload_apply (iblk m c 1 t) (iblk m c 0 t) r w l).trans ?_
  -- the input entry read, and the entries of β read, in array coordinates
  have hx : iblk m c 0 t (ix4 (0 : Fin 1) r w (featureOf l))
      = V m c main_arg0 (ix4 (⟨win0_2.index t (0 : Fin 4), by omega⟩ : Fin 8) (⟨win0_2.index t (1 : Fin 4) * 16 + r.val, by have := r.isLt; omega⟩ : Fin 128) w (featureOf l)) := by
    show V m c main_arg0 (((cfg0.win 0).blk t).view.emb (ix4 (0 : Fin 1) r w (featureOf l))) = _
    refine congrArg (V m c main_arg0) (funext fun a => Fin.ext ?_)
    match a with
    | ⟨0, _⟩ => show win0_0.index t (0 : Fin 4) * 1 + 1 * 0 = win0_2.index t (0 : Fin 4); omega
    | ⟨1, _⟩ => show win0_0.index t (1 : Fin 4) * 16 + 1 * r.val = win0_2.index t (1 : Fin 4) * 16 + r.val; omega
    | ⟨2, _⟩ => show win0_0.index t (2 : Fin 4) * 128 + 1 * w.val = w.val; omega
    | ⟨3, _⟩ => show win0_0.index t (3 : Fin 4) * 64 + 1 * (l.val / 16) = l.val / 16; omega
  have hβ : (iblk m c 1 t : FVec Ideal S64x16 .f32) = V m c main_arg1 := by
    funext y
    show V m c main_arg1 (((cfg0.win 1).blk t).view.emb y) = V m c main_arg1 y
    refine congrArg (V m c main_arg1) (funext fun a => Fin.ext ?_)
    match a with
    | ⟨0, _⟩ => show win0_1.index t (0 : Fin 2) * 64 + 1 * (y 0).val = (y 0).val; omega
    | ⟨1, _⟩ => show win0_1.index t (1 : Fin 2) * 16 + 1 * (y 1).val = (y 1).val; omega
  have hi : ((cfg0.win 2).blk t).view.emb (ix4 (0 : Fin 1) r w l)
      = ix4 (⟨win0_2.index t (0 : Fin 4), by omega⟩ : Fin 8) (⟨win0_2.index t (1 : Fin 4) * 16 + r.val, by have := r.isLt; omega⟩ : Fin 128) w l := by
    funext a; apply Fin.ext
    match a with
    | ⟨0, _⟩ => show win0_2.index t (0 : Fin 4) * 1 + 1 * 0 = win0_2.index t (0 : Fin 4); omega
    | ⟨1, _⟩ => show win0_2.index t (1 : Fin 4) * 16 + 1 * r.val = win0_2.index t (1 : Fin 4) * 16 + r.val; omega
    | ⟨2, _⟩ => show win0_2.index t (2 : Fin 4) * 128 + 1 * w.val = w.val; omega
    | ⟨3, _⟩ => show win0_2.index t (3 : Fin 4) * 1024 + 1 * l.val = l.val; omega
  rw [hx, hβ, hi]
  rfl

/-- An index of the array is in point `t`'s block iff each coordinate is in the block's range on its axis. -/
theorem mem_block (t : Fin cfg0.N) (i : S8x128x128x1024.Idx) :
    i ∈ ((cfg0.win 2).blk t).view.set ↔ ∀ a : Fin 4, win0_2.index t a * S1x16x128x1024.size a ≤ (i a).val ∧ (i a).val < win0_2.index t a * S1x16x128x1024.size a + S1x16x128x1024.size a := by
  show i ∈ ((View.whole main_v0).slice (win0_2.rect t)).set ↔ _
  rw [View.set_slice_whole, Rect.mem_set_unit]
  exact Iff.rfl

/-- Every index of the array is in some point's block: the one at (i₀, i₁ / 16). -/
theorem covered (i : S8x128x128x1024.Idx) :
    ∃ t : Fin cfg0.N, (cfg0.win 2).flush t = true ∧ i ∈ ((cfg0.win 2).blk t).view.set := by
  have hi0 : (i 0).val < 8 := (i 0).isLt
  have hi1 : (i 1).val < 128 := (i 1).isLt
  have hi2 : (i 2).val < 128 := (i 2).isLt
  have hi3 : (i 3).val < 1024 := (i 3).isLt
  obtain ⟨t, ht⟩ := index_onto ⟨(i 0).val, hi0⟩ ⟨(i 1).val / 16, by omega⟩
  have q0 : win0_2.index t (0 : Fin 4) = (i 0).val := congrFun ht 0
  have q1 : win0_2.index t (1 : Fin 4) = (i 1).val / 16 := congrFun ht 1
  have q2 : win0_2.index t (2 : Fin 4) = 0 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 128 ≤ (i 2).val ∧ (i 2).val < win0_2.index t (2 : Fin 4) * 128 + 128; omega
  | ⟨3, _⟩ => show win0_2.index t (3 : Fin 4) * 1024 ≤ (i 3).val ∧ (i 3).val < win0_2.index t (3 : Fin 4) * 1024 + 1024; omega

/-- THE MERGED-AXES ARRAY after the last write-back: `spreadFlat` of the two arguments as launched. -/
theorem flat_final (c : Dev nD) :
    (dats m 0 c).arrAt 2 cfg0.N = spreadFlat (m ((c : Thread nD τ).loc main_arg0)) (m ((c : Thread nD τ).loc main_arg1)) :=
  (dats m 0 c).arrAt_eq_of_cover 2 _ (fun t _ => flushed_eq m c t) covered

end Cert.MassPrototype

end
-- ==== Proof.KernelRun.lean ====
/-
  The kernel's program, run: its result is `spread` of the two arguments.

  After the region the merged-axes array holds `spreadFlat` of the arguments (the blocks tile it), and the one host line
  that follows splits the merged axis row-major into (feature, class), which gives `spread` (`split_flat`). The arguments
  are only read.
-/
import proofs.«155402_j62466004353281_2_alg».proof.Proof.FlatArray
import Idealize.ShloMosaic.Lib.StableHlo.Run

noncomputable section

namespace Cert.MassPrototype

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- What the region leaves in the merged-axes array, as the host line after it finds it. -/
theorem flat_after_region (c : Dev nD) :
    Pipeline.withArrays (cfgs 0).spec c (V0 m c) (fun w => (dats m 0 c).arrAt w (cfgs 0).N) (Proc.devRef .tc main_v0)
      = spreadFlat (m ((c : Thread nD τ).loc main_arg0)) (m ((c : Thread nD τ).loc main_arg1)) :=
  (Pipeline.withArrays_arr spec0 launch0.win.arr_inj c _ _ 2).trans (flat_final m c)

/-- The result buffer after the host line that follows the region: the merged axis split, which is `spread`. -/
theorem result_after_tail (c : Dev nD) :
    Pipeline.afterTail₀ cfgs (dats m) 0 (V0 m) [hostOps1] c main_v1
      = spread (m ((c : Thread nD τ).loc main_arg0)) (m ((c : Thread nD τ).loc main_arg1)) := by
  unfold Pipeline.afterTail₀
  show StableHlo.after hostOps1 _ (Proc.devRef .tc main_v1) = _
  after_results
  show (fun i => shapeCast S8x128x128x64x16
      (Pipeline.withArrays (cfgs 0).spec c (V0 m c) (fun w => (dats m 0 c).arrAt w (cfgs 0).N) (Proc.devRef .tc main_v0))
      shapeCasts_S8x128x128x1024_S8x128x128x64x16 i) = _
  rw [flat_after_region]
  exact split_flat _ _ _

/-- The result buffer is none of the region's arrays (it is the host line's own). -/
theorem result_not_staged : main_v1 ∈ Pipeline.restRefs sig cfg0.spec :=
  Pipeline.mem_restRefs_of main_v1 rfl (fun w => by fin_cases w <;> decide)

/-- THE RUN: every weakly fair execution of the kernel's program terminates with its result at `spread` of the two
    arguments as launched, and the arguments unchanged. -/
theorem run : θ_run defs (onTc (τ := τ) (main (F := Ideal))) ⟨m, fun _ => 0, ρ⟩ fun r => ∀ c : Dev nD,
      r.2.mem ((c.tc : Thread nD τ).loc main_v1)
        = spread (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v1 result_not_staged).trans (result_after_tail m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.MassPrototype

end
-- ==== Proof.ReferenceSpread.lean ====
/-
  The reference computes `spread`.

  Read one operation at a time, entry (b, r, w, d, c) of the reference's result is the product of two broadcasts: the input
  entry (b, r, w, d), repeated along the classes, and the weight table entry (d, c), repeated along the batch and the two
  spatial axes. The weight table is the quotient of `β`'s squares by their row sums kept as a column and repeated along the
  row; the host's row sum starts from the constant 0, which adds nothing.
-/
import proofs.«155402_j62466004353281_2_alg».proof.Proof.Gen.ReferenceIdeal.Read
import proofs.«155402_j62466004353281_2_alg».proof.Proof.MassWeights
import Idealize.ShloMosaic.PureOps.Ideal.Laws

noncomputable section

namespace Cert.MassPrototype

open Cert.ReferenceIdeal Cert.ReferenceIdeal.Read Idealize.ShloMosaic Idealize.ShloMosaic.ValueIdx

/-- The input entry the result's entry (b, r, w, d, c) reads: through the two broadcasts, (b, r, w, d). -/
theorem input_index (b : Fin 8) (r : Fin 128) (w : Fin 128) (d : Fin 64) (c : Fin 16) :
    idx_main_v5 (idx_main_v7 (ix5 b r w d c)) = ix4 b r w d :=
  funext fun a => Fin.ext (by match a with | ⟨0, _⟩ => rfl | ⟨1, _⟩ => rfl | ⟨2, _⟩ => rfl | ⟨3, _⟩ => rfl)

/-- The weight table entry it reads: (d, c). -/
theorem table_index (b : Fin 8) (r : Fin 128) (w : Fin 128) (d : Fin 64) (c : Fin 16) :
    idx_main_v6 (idx_main_v8 (ix5 b r w d c)) = ix2 d c :=
  funext fun a => Fin.ext (by match a with | ⟨0, _⟩ => rfl | ⟨1, _⟩ => rfl)

/-- The entries of `β`'s squares the row sum under the table entry (d, c) runs over: row `d`. -/
theorem row_index (d : Fin 64) (c : Fin 16) (k : Fin 16) :
    idx_main_v1 (idx_main_v2 (idx_main_v3 (ix2 d c))) k = ix2 d k :=
  funext fun a => Fin.ext (by match a with | ⟨0, _⟩ => rfl | ⟨1, _⟩ => rfl)

/-- The reference's result, as its run states it, is `spread` of the two arguments. -/
theorem reference_eq (x0 : (⟨S8x128x128x64, .f32⟩ : BufTy).Contents (Elt Ideal)) (x1 : (⟨S64x16, .f32⟩ : BufTy).Contents (Elt Ideal)) :
    val_main_v9 (F := Ideal) x0 x1 = spread x0 x1 := by
  funext i
  obtain ⟨b, r, w, d, c, rfl⟩ : ∃ (b : Fin 8) (r : Fin 128) (w : Fin 128) (d : Fin 64) (c : Fin 16), i = ix5 b r w d c :=
    ⟨i 0, i 1, i 2, i 3, i 4, eq_ix5 i⟩
  simp only [val_main_v9_apply, val_main_v7_apply, val_main_v5_apply, val_main_v8_apply, val_main_v6_apply,
    val_main_v4_apply, val_main_v3_apply, val_main_v2_apply, val_main_v1_apply, val_main_v0_apply, val_main_cst_apply,
    input_index, table_index, row_index, Ideal.mulf_def, Ideal.hostDivf_def, Ideal.ofBits_def, Ideal.ofBits_zero_f32, zero_add]
  rfl

end Cert.MassPrototype

end
-- ==== Proof.lean ====
/-
  The kernel and its reference compute one function, on the extended reals.

  Both take an input `x` of shape [8, 128, 128, 64] and a table `β` of shape [64, 16]. For a feature `d` and a class `c`
  the weight is u(d, c) = β(d,c)·β(d,c) / Σ_k β(d,k)·β(d,k), the squared entry over its row's sum of squares, and the result
  is out(b, h, w, d, c) = x(b, h, w, d) · u(d, c)  (`Cert.MassPrototype.spread`, Proof/MassWeights.lean).

  The reference builds exactly that with broadcasts (Proof/ReferenceSpread.lean: its row sum starts from the constant 0,
  which adds nothing). The kernel works block by block over an 8 × 8 grid: at each point it rebuilds the weight table from
  the whole of `β`, multiplies one block of sixteen input rows by it, and writes the products with the feature and class
  axes merged into one of length 1024 (Proof/BlockPayload.lean); the blocks tile the merged-axes array
  (Proof/FlatArray.lean), and the host splits the merged axis again (Proof/KernelRun.lean). The two sums are the same sum
  over the sixteen classes and the two quotients the same quotient, so no entry needs to be finite and the precondition is
  never opened. The idealization rewrote nothing in the kernel, so there is nothing to preserve; the three programs' frames
  are the generated ones, the reference's read off its generated run.
-/
import proofs.«155402_j62466004353281_2_alg».proof.Defs
import proofs.«155402_j62466004353281_2_alg».proof.Proof.Gen.Kernel
import proofs.«155402_j62466004353281_2_alg».proof.Proof.Gen.Kernel.Frame
import proofs.«155402_j62466004353281_2_alg».proof.Proof.Gen.KernelIdeal
import proofs.«155402_j62466004353281_2_alg».proof.Proof.Gen.KernelIdeal.Frame
import proofs.«155402_j62466004353281_2_alg».proof.Proof.Gen.ReferenceIdeal
import proofs.«155402_j62466004353281_2_alg».proof.Proof.Gen.ReferenceIdeal.Run
import proofs.«155402_j62466004353281_2_alg».proof.Proof.Gen.ReferenceIdeal.Read
import proofs.«155402_j62466004353281_2_alg».proof.Proof.Gen.Pre_finite_inputs
import proofs.«155402_j62466004353281_2_alg».proof.Proof.KernelRun
import proofs.«155402_j62466004353281_2_alg».proof.Proof.ReferenceSpread
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on `x` and `β` both programs end with their results at `spread x β`: the kernel's by its run
    (blocks, then the split of the merged axis), the reference's by its run read one operation at a time. -/
theorem algebraic : Cert.algebraic_KernelIdeal_ReferenceIdeal := by
  intro m ρ m' ρ' _ hagree
  refine ⟨fun c => Cert.MassPrototype.spread
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.MassPrototype.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, Cert.MassPrototype.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
